-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_c_0 : IVec S_ 32 := constantI S_ 32 0#32
  let main_v4 : IVec S16777216 32 := broadcastInDim S16777216 ![] bcast_S_S16777216 main_c_0
  let main_v5 : IVec S16777216 1 := cmpi .eq main_arg1 main_v4
  let main_c_1 : IVec S_ 32 := constantI S_ 32 1#32
  let main_v6 : IVec S16777216 32 := broadcastInDim S16777216 ![] bcast_S_S16777216 main_c_1
  let main_v7 : IVec S16777216 1 := cmpi .eq main_arg1 main_v6
  let main_v8 : IVec S16777216 1 := ori main_v5 main_v7
  let main_c_2 : IVec S_ 1 := constantI S_ 1 1#1
  let main_v9 : IVec S_ 1 := (fun x v => Host.reduce IntOp.andi x v reducesTo_S16777216_S_d0 h_S_) main_v8 main_c_2
  let main_v10 : IVec S_ 1 := andi main_v3 main_v9
  main_v10
-- ==== Kernel.lean ====
abbrev S16777216 : Shape := ⟨1, ![16777216]⟩
abbrev S131072x128 : Shape := ⟨2, ![131072, 128]⟩
abbrev S2x8x128 : Shape := ⟨3, ![2, 8, 128]⟩
abbrev S2048x128 : Shape := ⟨2, ![2048, 128]⟩
abbrev S1x8x128 : Shape := ⟨3, ![1, 8, 128]⟩
abbrev S8x128 : Shape := ⟨2, ![8, 128]⟩
abbrev S256x8x128 : Shape := ⟨3, ![256, 8, 128]⟩
abbrev S_ : Shape := ⟨0, ![]⟩

abbrev nBuf : Space → Nat
  | .hbm => 35
  | .vmem => 13
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S2x8x128, .f32⟩
  | .hbm, ⟨5, _⟩ => ⟨S2x8x128, .f32⟩
  | .hbm, ⟨6, _⟩ => ⟨S2x8x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .i32⟩
  | .local _ .vmem, ⟨3, _⟩ => ⟨S2048x128, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_cst_3 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩
abbrev main_cst_7 : Ref sig .tc := ⟨.hbm, 25, rfl⟩
abbrev main_v13 : Ref sig .tc := ⟨.hbm, 26, rfl⟩
abbrev main_v14 : Ref sig .tc := ⟨.hbm, 27, rfl⟩
abbrev main_cst_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_9 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v45 : BitVec 1 := Scalar.cmpi .eq arg1 c31_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x128_S256x8x128 : S2048x128.ShapeCasts S256x8x128
  reduces_S256x8x128_S8x128 : S256x8x128.Reduces [0] S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .i32 = 32 ∨ (Rect.block (s := S131072x128) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S16777216, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16777216, .f32⟩
  | .hbm, ⟨24, _⟩ => ⟨S16777216, .i1⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S16777216, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S_, .f32⟩
  | .hbm, ⟨35, _⟩ => ⟨S16777216, .f32⟩
  | .hbm, ⟨36, _⟩ => ⟨S16777216, .f32⟩
  | .hbm, ⟨37, _⟩ => ⟨S16777216, .f32⟩
  | .hbm, ⟨38, _⟩ => ⟨S_, .f32⟩
  | .hbm, ⟨39, _⟩ => ⟨S16777216, .f32⟩
  | .hbm, ⟨40, _⟩ => ⟨S16777216, .f32⟩
  | .hbm, ⟨41, _⟩ => ⟨S16777216, .f32⟩
  | .hbm, ⟨42, _⟩ => ⟨S16777216, .f32⟩
  | .hbm, ⟨43, _⟩ => ⟨S16777216, .f32⟩
  | .hbm, ⟨44, _⟩ => ⟨S16777216, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_cst_7 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_cst_8 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_9 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_10 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_11 : Ref sig .tc := ⟨.hbm, 45, rfl⟩
abbrev main_v29 : Ref sig .tc := ⟨.hbm, 46, rfl⟩
abbrev main_cst_12 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  reducesTo_S16777216_S_d0 : S16777216.ReducesTo [0] S_
  h_S_ : 0 < S_.numel
  bcast_S_S16777216 : S_.BroadcastsInDim S16777216 (![] : Fin 0 → Fin S16777216.rank)

variable [Facts₀]

class Facts : Prop extends Facts₀ where

variable [Facts]
-- ==== Proof.CasePieces.lean ====
/-
  What one grid point leaves in the kernel's three running totals and, at a core's last point, in its three output
  blocks, read off the body's stores.

  The body keeps three [8,128] totals (of the labels, of the label-1 terms, of the label-0 terms) in scratch.  At a
  core's first point it stores the zero block into each and then adds this point's folded block; at every later
  point it adds this point's folded block to what the point before left; at the core's last point it also copies
  the three totals into the three output blocks.  Each store covers its whole buffer, so what a buffer holds after
  the body is the last store's value, and every load the value depends on reads a whole buffer: the input blocks,
  the total as the point before left it, or (at the first point) the zero block just stored.
-/
import proofs.«156055_j14139032338660_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S2048x128 .f32) (harg2 : arg2.IsWhole)
  (arg3 : Memref sig .tc .vmem S2048x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x128 .f32) (harg6 : arg6.IsWhole)
  (arg7 : Memref sig .tc .vmem S8x128 .f32) (harg7 : arg7.IsWhole)
  (arg8 : Memref sig .tc .vmem S8x128 .f32) (harg8 : arg8.IsWhole)
  (arg9 : Memref sig .tc .vmem S8x128 .f32) (harg9 : arg9.IsWhole)
  (x0 : Vec F S2048x128 .f32) (x1 : Vec F S2048x128 .i32) (xs0 xs1 xs2 : Vec F S8x128 .f32)

/- The one argument every lemma below ends with.  The buffer's stores, last first, are in the goal as a list of
    pieces; the last store covers the buffer from offset zero (`whole`: which of the library's three readings of
    such a list applies), so the buffer holds its value; a load of a total that an earlier store of this same body
    covered reads that store's value; every other load reads a whole buffer at its contents. -/
set_option hygiene false in
local macro "last_store_value" whole:term : tactic => `(tactic| (
  dsimp only
  sl_unfold_words
  rw [$whole:term]
  (try rw [View.readCov_unit_zero (S := S8x128) _ hz2])
  simp only [View.readAt_eq_ld, harg2.read_unread, harg3.read_unread, harg7.read_unread, harg8.read_unread,
    harg9.read_unread, View.ld_unit_zero (S := S8x128) hz2, View.ld_unit_zero (S := S2048x128) hz2]))

/-! ## The first point of a core: the zero block, then this point's folded block added -/

theorem first_s (hc0 : cond0_0 i) (hc1 : ¬cond0_1 i) :
    sout0_A_0 c i arg2 harg2 arg3 harg3 arg4 harg4 arg5 harg5 arg6 harg6 arg7 harg7 arg8 harg8 arg9 harg9 hc0 hc1 x0 x1
      = k0_pay12 x1 (k0_pay6 (F := F)) := by
  unfold sout0_A_0
  rw [View.read_writes_eq_canon _ _ _
    (scover0_A_0 c i arg2 harg2 arg3 harg3 arg4 harg4 arg5 harg5 arg6 harg6 arg7 harg7 arg8 harg8 arg9 harg9 hc0 hc1 x0 x1)]
  unfold kernelRun0_A
  last_store_value View.canon_cons_unit_zero (S := S8x128) hz2

theorem first_a (hc0 : cond0_0 i) (hc1 : ¬cond0_1 i) :
    sout0_A_1 c i arg2 harg2 arg3 harg3 arg4 harg4 arg5 harg5 arg6 harg6 arg7 harg7 arg8 harg8 arg9 harg9 hc0 hc1 x0 x1
      = k0_pay1 (k0_pay13 x0 x1 (k0_pay7 (F := F))) := by
  unfold sout0_A_1
  rw [View.read_writes_eq_canon _ _ _
    (scover0_A_1 c i arg2 harg2 arg3 harg3 arg4 harg4 arg5 harg5 arg6 harg6 arg7 harg7 arg8 harg8 arg9 harg9 hc0 hc1 x0 x1)]
  unfold kernelRun0_A
  last_store_value View.canon_cons_unit_zero (S := S8x128) hz2

theorem first_b (hc0 : cond0_0 i) (hc1 : ¬cond0_1 i) :
    sout0_A_2 c i arg2 harg2 arg3 harg3 arg4 harg4 arg5 harg5 arg6 harg6 arg7 harg7 arg8 harg8 arg9 harg9 hc0 hc1 x0 x1
      = k0_pay2 (k0_pay11 x0 x1) (k0_pay8 (F := F)) := by
  unfold sout0_A_2
  rw [View.read_writes_eq_canon _ _ _
    (scover0_A_2 c i arg2 harg2 arg3 harg3 arg4 harg4 arg5 harg5 arg6 harg6 arg7 harg7 arg8 harg8 arg9 harg9 hc0 hc1 x0 x1)]
  unfold kernelRun0_A
  last_store_value View.canon_cons_unit_zero (S := S8x128) hz2

/-! ## A middle point: this point's folded block added to what the point before left -/

theorem mid_s (hc0 : ¬cond0_0 i) (hc1 : ¬cond0_1 i) :
    sout0_B_0 c i arg2 harg2 arg3 harg3 arg4 harg4 arg5 harg5 arg6 harg6 arg7 harg7 arg8 harg8 arg9 harg9 hc0 hc1
        x0 x1 xs0 xs1 xs2
      = k0_pay12 x1 xs0 := by
  unfold sout0_B_0
  rw [View.read_writes_eq_canon _ _ _
    (scover0_B_0 c i arg2 harg2 arg3 harg3 arg4 harg4 arg5 harg5 arg6 harg6 arg7 harg7 arg8 harg8 arg9 harg9 hc0 hc1
      x0 x1 xs0 xs1 xs2)]
  unfold kernelRun0_B
  last_store_value View.canon_unit_zero hz2

theorem mid_a (hc0 : ¬cond0_0 i) (hc1 : ¬cond0_1 i) :
    sout0_B_1 c i arg2 harg2 arg3 harg3 arg4 harg4 arg5 harg5 arg6 harg6 arg7 harg7 arg8 harg8 arg9 harg9 hc0 hc1
        x0 x1 xs0 xs1 xs2
      = k0_pay1 (k0_pay13 x0 x1 xs1) := by
  unfold sout0_B_1
  rw [View.read_writes_eq_canon _ _ _
    (scover0_B_1 c i arg2 harg2 arg3 harg3 arg4 harg4 arg5 harg5 arg6 harg6 arg7 harg7 arg8 harg8 arg9 harg9 hc0 hc1
      x0 x1 xs0 xs1 xs2)]
  unfold kernelRun0_B
  last_store_value View.canon_unit_zero hz2

theorem mid_b (hc0 : ¬cond0_0 i) (hc1 : ¬cond0_1 i) :
    sout0_B_2 c i arg2 harg2 arg3 harg3 arg4 harg4 arg5 harg5 arg6 harg6 arg7 harg7 arg8 harg8 arg9 harg9 hc0 hc1
        x0 x1 xs0 xs1 xs2
      = k0_pay2 (k0_pay11 x0 x1) xs2 := by
  unfold sout0_B_2
  rw [View.read_writes_eq_canon _ _ _
    (scover0_B_2 c i arg2 harg2 arg3 harg3 arg4 harg4 arg5 harg5 arg6 harg6 arg7 harg7 arg8 harg8 arg9 harg9 hc0 hc1
      x0 x1 xs0 xs1 xs2)]
  unfold kernelRun0_B
  last_store_value View.canon_unit_zero hz2

/-! ## The last point of a core: the same addition, and the three totals copied to the output blocks -/

theorem last_s (hc0 : ¬cond0_0 i) (hc1 : cond0_1 i) :
    sout0_C_0 c i arg2 harg2 arg3 harg3 arg4 harg4 arg5 harg5 arg6 harg6 arg7 harg7 arg8 harg8 arg9 harg9 hc0 hc1
        x0 x1 xs0 xs1 xs2
      = k0_pay12 x1 xs0 := by
  unfold sout0_C_0
  rw [View.read_writes_eq_canon _ _ _
    (scover0_C_0 c i arg2 harg2 arg3 harg3 arg4 harg4 arg5 harg5 arg6 harg6 arg7 harg7 arg8 harg8 arg9 harg9 hc0 hc1
      x0 x1 xs0 xs1 xs2)]
  unfold kernelRun0_C
  last_store_value View.canon_unit_zero hz2

theorem last_a (hc0 : ¬cond0_0 i) (hc1 : cond0_1 i) :
    sout0_C_1 c i arg2 harg2 arg3 harg3 arg4 harg4 arg5 harg5 arg6 harg6 arg7 harg7 arg8 harg8 arg9 harg9 hc0 hc1
        x0 x1 xs0 xs1 xs2
      = k0_pay1 (k0_pay13 x0 x1 xs1) := by
  unfold sout0_C_1
  rw [View.read_writes_eq_canon _ _ _
    (scover0_C_1 c i arg2 harg2 arg3 harg3 arg4 harg4 arg5 harg5 arg6 harg6 arg7 harg7 arg8 harg8 arg9 harg9 hc0 hc1
      x0 x1 xs0 xs1 xs2)]
  unfold kernelRun0_C
  last_store_value View.canon_unit_zero hz2

theorem last_b (hc0 : ¬cond0_0 i) (hc1 : cond0_1 i) :
    sout0_C_2 c i arg2 harg2 arg3 harg3 arg4 harg4 arg5 harg5 arg6 harg6 arg7 harg7 arg8 harg8 arg9 harg9 hc0 hc1
        x0 x1 xs0 xs1 xs2
      = k0_pay2 (k0_pay11 x0 x1) xs2 := by
  unfold sout0_C_2
  rw [View.read_writes_eq_canon _ _ _
    (scover0_C_2 c i arg2 harg2 arg3 harg3 arg4 harg4 arg5 harg5 arg6 harg6 arg7 harg7 arg8 harg8 arg9 harg9 hc0 hc1
      x0 x1 xs0 xs1 xs2)]
  unfold kernelRun0_C
  last_store_value View.canon_unit_zero hz2

theorem out_s (hc0 : ¬cond0_0 i) (hc1 : cond0_1 i) :
    out0_C_2 c i arg2 harg2 arg3 harg3 arg4 harg4 arg5 harg5 arg6 harg6 arg7 harg7 arg8 harg8 arg9 harg9 hc0 hc1
        x0 x1 xs0 xs1 xs2
      = k0_pay3 (k0_pay12 x1 xs0) := by
  unfold out0_C_2
  rw [View.read_writes_eq_canon _ _ _
    (cover0_C_2 c i arg2 harg2 arg3 harg3 arg4 harg4 arg5 harg5 arg6 harg6 arg7 harg7 arg8 harg8 arg9 harg9 hc0 hc1
      x0 x1 xs0 xs1 xs2)]
  unfold kernelRun0_C
  last_store_value View.canon_unit_zero hz3

theorem out_a (hc0 : ¬cond0_0 i) (hc1 : cond0_1 i) :
    out0_C_3 c i arg2 harg2 arg3 harg3 arg4 harg4 arg5 harg5 arg6 harg6 arg7 harg7 arg8 harg8 arg9 harg9 hc0 hc1
        x0 x1 xs0 xs1 xs2
      = k0_pay4 (k0_pay1 (k0_pay13 x0 x1 xs1)) := by
  unfold out0_C_3
  rw [View.read_writes_eq_canon _ _ _
    (cover0_C_3 c i arg2 harg2 arg3 harg3 arg4 harg4 arg5 harg5 arg6 harg6 arg7 harg7 arg8 harg8 arg9 harg9 hc0 hc1
      x0 x1 xs0 xs1 xs2)]
  unfold kernelRun0_C
  last_store_value View.canon_unit_zero hz3

theorem out_b (hc0 : ¬cond0_0 i) (hc1 : cond0_1 i) :
    out0_C_4 c i arg2 harg2 arg3 harg3 arg4 harg4 arg5 harg5 arg6 harg6 arg7 harg7 arg8 harg8 arg9 harg9 hc0 hc1
        x0 x1 xs0 xs1 xs2
      = k0_pay5 (k0_pay2 (k0_pay11 x0 x1) xs2) := by
  unfold out0_C_4
  rw [View.read_writes_eq_canon _ _ _
    (cover0_C_4 c i arg2 harg2 arg3 harg3 arg4 harg4 arg5 harg5 arg6 harg6 arg7 harg7 arg8 harg8 arg9 harg9 hc0 hc1
      x0 x1 xs0 xs1 xs2)]
  unfold kernelRun0_C
  last_store_value View.canon_unit_zero hz3

end Cert.KernelIdeal.Pieces

end
-- ==== Proof.Terms.lean ====
/-
  The per-item terms of the weighted binary cross-entropy, the values of the programs' float constants, and the
  re-indexing of a sum over all 2^24 items by (core, sublane, lane, grid step, row chunk).

  Item k has a real x k and a label word gt k.  Its three terms are the label as a real (termS), the label times minus
  the clamped logarithm of x (termA), and one minus the label times minus the clamped logarithm of 1 - x (termB);
  the clamp is `max` with the constant -100, whose value is never needed.  The kernel lays the items out as a
  [131072, 128] array, gives core c and grid step s the rows (32 c + s) * 2048 .. + 2047, and folds each such block
  of 2048 rows to 8 rows by adding rows 8 r + p over r; so the item at (core c, step s, chunk r, sublane p, lane q)
  is item ((32 c + s) * 2048 + (8 r + p)) * 128 + q: every k below 2^24 exactly once (`regroup`).
-/
import Idealize.ShloMosaic.PureOps.Ideal.Laws
import Idealize.ShloMosaic.Lib.ValueIdx

noncomputable section

namespace Cert.Terms

open Idealize.ShloMosaic Idealize.ShloMosaic.ValueIdx

/-! ## The constants -/

/-- `1.0` denotes 1. -/
theorem ofBits_one : Ideal.ofBits .f32 0x3F800000#32 = 1 := by
  simp [Ideal.ofBits, Ideal.ieee, -EReal.coe_mul]; norm_num

/-- `2.0` denotes 2. -/
theorem ofBits_two : Ideal.ofBits .f32 0x40000000#32 = ((2 : ℝ) : EReal) := by
  simp [Ideal.ofBits, Ideal.ieee, -EReal.coe_mul]; norm_num

/-- `16777216.0`, the number of items as a float, denotes 2^24. -/
theorem ofBits_count : Ideal.ofBits .f32 0x4B800000#32 = ((16777216 : ℝ) : EReal) := by
  simp [Ideal.ofBits, Ideal.ieee, -EReal.coe_mul]; norm_num

/-- The number of items as the programs spell it. -/
abbrev cnt : EReal := Ideal.ofBits .f32 0x4B800000#32
/-- The constant 2 as the programs spell it. -/
abbrev two : EReal := Ideal.ofBits .f32 0x40000000#32

/-! ## The terms of one item -/

/-- The label word read as a signed integer, as an extended real. -/
def lab (w : BitVec 32) : EReal := ((w.toInt : ℝ) : EReal)

/-- The clamp's constant, the pattern of -100.0 (its value is not used). -/
abbrev floor : EReal := Ideal.ofBits .f32 0xC2C80000#32

/-- `max (log x) (-100)`. -/
def clampLog (x : EReal) : EReal := max (Ideal.log x) floor
/-- `max (log1p (-x)) (-100)`. -/
def clampLog1m (x : EReal) : EReal := max (Ideal.log1p (-x)) floor

/-- The label-1 term of an item: the label times minus its clamped logarithm. -/
def termA (x : EReal) (w : BitVec 32) : EReal := lab w * (0 - clampLog x)
/-- The label-0 term of an item: one minus the label, times minus the clamped logarithm of the complement. -/
def termB (x : EReal) (w : BitVec 32) : EReal := (1 - lab w) * (0 - clampLog1m x)

/-- A label word that is 0 or 1 reads as the real 0 or 1. -/
theorem lab_cases {w : BitVec 32} (h : w = 0#32 ∨ w = 1#32) :
    ∃ b : ℝ, (b = 0 ∨ b = 1) ∧ lab w = (b : EReal) := by
  rcases h with rfl | rfl
  · exact ⟨0, Or.inl rfl, by simp [lab]⟩
  · exact ⟨1, Or.inr rfl, by simp [lab]⟩

/-! ## Sums over index sets of small rank -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-! ## Every item once -/

/-- A sum over the first `a * b` naturals, by quotient and remainder. -/
theorem sum_range_mul {M : Type*} [AddCommMonoid M] (a b : ℕ) (g : ℕ → M) :
    ∑ u ∈ Finset.range (a * b), g u = ∑ i ∈ Finset.range a, ∑ j ∈ Finset.range b, g (i * b + j) := by
  induction a with
  | zero => rw [Nat.zero_mul, Finset.range_zero, Finset.sum_empty, Finset.sum_empty]
  | succ a ih => rw [Nat.succ_mul, Finset.sum_range_add, Finset.sum_range_succ, ih]

/-- The items by (core, sublane, lane, grid step, row chunk), all as naturals: every k below 2^24 once. -/
theorem regroup_range {M : Type*} [AddCommMonoid M] (φ : ℕ → M) :
    ∑ c ∈ Finset.range 2, ∑ p ∈ Finset.range 8, ∑ q ∈ Finset.range 128, ∑ s ∈ Finset.range 32, ∑ r ∈ Finset.range 256,
        φ (((32 * c + s) * 2048 + (8 * r + p)) * 128 + q)
      = ∑ k ∈ Finset.range 16777216, φ k := by
  have e : ∀ c s r p q : ℕ, ((32 * c + s) * 2048 + (8 * r + p)) * 128 + q
      = (c * 32 + s) * 262144 + (r * 1024 + (p * 128 + q)) := fun c s r p q => by ring
  calc _ = ∑ c ∈ Finset.range 2, ∑ p ∈ Finset.range 8, ∑ s ∈ Finset.range 32, ∑ q ∈ Finset.range 128,
            ∑ r ∈ Finset.range 256, φ (((32 * c + s) * 2048 + (8 * r + p)) * 128 + q) :=
        Finset.sum_congr rfl fun c _ => Finset.sum_congr rfl fun p _ => Finset.sum_comm
    _ = ∑ c ∈ Finset.range 2, ∑ s ∈ Finset.range 32, ∑ p ∈ Finset.range 8, ∑ q ∈ Finset.range 128,
            ∑ r ∈ Finset.range 256, φ (((32 * c + s) * 2048 + (8 * r + p)) * 128 + q) :=
        Finset.sum_congr rfl fun c _ => Finset.sum_comm
    _ = ∑ c ∈ Finset.range 2, ∑ s ∈ Finset.range 32, ∑ p ∈ Finset.range 8, ∑ r ∈ Finset.range 256,
            ∑ q ∈ Finset.range 128, φ (((32 * c + s) * 2048 + (8 * r + p)) * 128 + q) :=
        Finset.sum_congr rfl fun c _ => Finset.sum_congr rfl fun s _ => Finset.sum_congr rfl fun p _ => Finset.sum_comm
    _ = ∑ c ∈ Finset.range 2, ∑ s ∈ Finset.range 32, ∑ r ∈ Finset.range 256, ∑ p ∈ Finset.range 8,
            ∑ q ∈ Finset.range 128, φ (((32 * c + s) * 2048 + (8 * r + p)) * 128 + q) :=
        Finset.sum_congr rfl fun c _ => Finset.sum_congr rfl fun s _ => Finset.sum_comm
    _ = ∑ k ∈ Finset.range 16777216, φ k := by
        rw [show 16777216 = (2 * 32) * (256 * (8 * 128)) from rfl, sum_range_mul (2 * 32), sum_range_mul 2 32]
        refine Finset.sum_congr rfl fun c _ => Finset.sum_congr rfl fun s _ => ?_
        rw [sum_range_mul 256]
        refine Finset.sum_congr rfl fun r _ => ?_
        rw [sum_range_mul 8 128]
        refine Finset.sum_congr rfl fun p _ => Finset.sum_congr rfl fun q _ => ?_
        rw [e]

/-- The same with the core, sublane, lane and row chunk as bounded indices. -/
theorem regroup {M : Type*} [AddCommMonoid M] (φ : ℕ → M) :
    ∑ c : Fin 2, ∑ p : Fin 8, ∑ q : Fin 128, ∑ s ∈ Finset.range 32, ∑ r : Fin 256,
        φ (((32 * c.val + s) * 2048 + (8 * r.val + p.val)) * 128 + q.val)
      = ∑ k ∈ Finset.range 16777216, φ k := by
  rw [← regroup_range φ]
  simp only [Finset.sum_range]

end Cert.Terms

end
-- ==== Proof.BlockFold.lean ====
/-
  One grid point's three additions, read at an entry over the extended reals.

  The body views its [2048,128] block of terms as [256,8,128], sums over the leading axis and adds the [8,128] result
  to a running total.  Entry (p, q) of the sum is the sum over the 256 chunks r of the block's entry (8 r + p, q):
  the view keeps row-major positions, and (8 r + p) * 128 + q = (r * 8 + p) * 128 + q.  The block of terms is
  computed entry by entry from the block of x and the block of labels, so its entry at a row and lane is the item's
  term there (`Terms.lab`, `Terms.termA`, `Terms.termB`).
-/
import proofs.«156055_j14139032338660_2_alg».proof.Proof.Gen.KernelIdeal.Skeleton
import proofs.«156055_j14139032338660_2_alg».proof.Proof.Terms
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Fold

open Cert.KernelIdeal Cert.KernelIdeal.Gen Cert.Terms

/-- Row `8 r + p` of a block of 2048 rows: sublane p of chunk r. -/
def row (r : Fin 256) (p : Fin 8) : Fin 2048 := ⟨8 * r.val + p.val, by have := r.isLt; have := p.isLt; omega⟩

/-- A block of terms folded to [8,128] and added to a total, at entry (p, q): the total's entry plus the sum over
    the chunks of the block's entry at row 8 r + p. -/
theorem fold_add_apply (E : FVec Ideal S2048x128 .f32) (acc : FVec Ideal S8x128 .f32) (p : Fin 8) (q : Fin 128) :
    addf acc (multiReduction .add [0] S8x128 (shapeCast S256x8x128 E shapeCasts_S2048x128_S256x8x128) 0x00000000#32
        reduces_S256x8x128_S8x128 (.inl rfl) rfl) (ix2 p q)
      = acc (ix2 p q) + ∑ r : Fin 256, E (ix2 (row r p) q) := by
  rw [addf_apply]
  refine congrArg (acc (ix2 p q) + ·) ?_
  refine (Ideal.multiReduction_add_single (shapeCast S256x8x128 E shapeCasts_S2048x128_S256x8x128) 0x00000000#32
    reduces_S256x8x128_S8x128 (.inl rfl) rfl (ix2 p q)).trans ?_
  show ∑ r : Fin 256, _ = _
  refine Finset.sum_congr rfl fun r _ => ?_
  refine shapeCast_apply E _ _ (ix2 (row r p) q) ?_
  rw [Shape.rowMajor_val_two, Shape.rowMajor_val_three]
  show (8 * r.val + p.val) * 128 + q.val = (r.val * 8 + p.val) * 128 + q.val
  omega

variable (x0 : Vec Ideal S2048x128 .f32) (x1 : Vec Ideal S2048x128 .i32) (acc : Vec Ideal S8x128 .f32)

/-- The label block as reals, entry by entry. -/
theorem labels_apply (y : S2048x128.Idx) : k0_pay10 (F := Ideal) x1 y = lab (x1 y) := by
  unfold k0_pay10
  rw [shapeCast_self]
  rfl

/-- The block of label-1 terms, entry by entry. -/
theorem termsA_apply (y : S2048x128.Idx) :
    mulf (k0_pay10 (F := Ideal) x1) (subf (broadcast S2048x128 (Scalar.ofBits .f32 0x00000000#32))
      (maximumf (log (k0_pay9 x0)) (broadcast S2048x128 (Scalar.ofBits .f32 0xC2C80000#32)))) y
      = termA (x0 y) (x1 y) := by
  rw [mulf_apply, labels_apply]
  unfold k0_pay9 termA clampLog
  rw [shapeCast_self]
  show lab (x1 y) * (Ideal.ofBits .f32 0x00000000#32 - max (Ideal.log (x0 y)) floor) = _
  rw [Ideal.ofBits_zero_f32]

/-- The block of label-0 terms, entry by entry. -/
theorem termsB_apply (y : S2048x128.Idx) : k0_pay11 (F := Ideal) x0 x1 y = termB (x0 y) (x1 y) := by
  unfold k0_pay11
  rw [mulf_apply, subf_apply, labels_apply]
  unfold k0_pay9 termB clampLog1m
  rw [shapeCast_self]
  show (Ideal.ofBits .f32 0x3F800000#32 - lab (x1 y))
      * (Ideal.ofBits .f32 0x00000000#32 - max (Ideal.log1p (Ideal.ofBits .f32 0x00000000#32 - x0 y)) floor) = _
  simp only [Ideal.ofBits_zero_f32, ofBits_one, zero_sub]

/-- The total of labels after a point: what it held plus this block's labels folded. -/
theorem total_s_apply (p : Fin 8) (q : Fin 128) :
    k0_pay12 (F := Ideal) x1 acc (ix2 p q) = acc (ix2 p q) + ∑ r : Fin 256, lab (x1 (ix2 (row r p) q)) := by
  unfold k0_pay12
  rw [shapeCast_self]
  refine (fold_add_apply (k0_pay10 x1) acc p q).trans ?_
  exact congrArg (acc (ix2 p q) + ·) (Finset.sum_congr rfl fun r _ => labels_apply x1 _)

/-- The total of label-1 terms after a point. -/
theorem total_a_apply (p : Fin 8) (q : Fin 128) :
    k0_pay1 (F := Ideal) (k0_pay13 x0 x1 acc) (ix2 p q)
      = acc (ix2 p q) + ∑ r : Fin 256, termA (x0 (ix2 (row r p) q)) (x1 (ix2 (row r p) q)) := by
  unfold k0_pay1 k0_pay13
  rw [shapeCast_self]
  refine (fold_add_apply _ acc p q).trans ?_
  exact congrArg (acc (ix2 p q) + ·) (Finset.sum_congr rfl fun r _ => termsA_apply x0 x1 _)

/-- The total of label-0 terms after a point. -/
theorem total_b_apply (p : Fin 8) (q : Fin 128) :
    k0_pay2 (F := Ideal) (k0_pay11 x0 x1) acc (ix2 p q)
      = acc (ix2 p q) + ∑ r : Fin 256, termB (x0 (ix2 (row r p) q)) (x1 (ix2 (row r p) q)) := by
  unfold k0_pay2
  rw [shapeCast_self]
  refine (fold_add_apply (k0_pay11 x0 x1) acc p q).trans ?_
  exact congrArg (acc (ix2 p q) + ·) (Finset.sum_congr rfl fun r _ => termsB_apply x0 x1 _)

/-- The zero block a core's first point stores is zero at every entry. -/
theorem zero_block_apply (y : S8x128.Idx) :
    k0_pay6 (F := Ideal) y = 0 ∧ k0_pay7 (F := Ideal) y = 0 ∧ k0_pay8 (F := Ideal) y = 0 := by
  unfold k0_pay6 k0_pay7 k0_pay8
  simp only [shapeCast_self]
  exact ⟨Ideal.ofBits_zero_f32, Ideal.ofBits_zero_f32, Ideal.ofBits_zero_f32⟩

/-- A total copied into an output block [1,8,128], at entry (0, p, q). -/
theorem copy_apply (v : Vec Ideal S8x128 .f32) (u : Fin 1) (p : Fin 8) (q : Fin 128) :
    k0_pay3 (F := Ideal) v (ix3 u p q) = v (ix2 p q) ∧ k0_pay4 (F := Ideal) v (ix3 u p q) = v (ix2 p q)
      ∧ k0_pay5 (F := Ideal) v (ix3 u p q) = v (ix2 p q) := by
  have e : (S8x128.rowMajor (ix2 p q)).val = (S1x8x128.rowMajor (ix3 u p q)).val := by
    rw [Shape.rowMajor_val_two, Shape.rowMajor_val_three]
    show p.val * 128 + q.val = (u.val * 8 + p.val) * 128 + q.val
    have := u.isLt; omega
  unfold k0_pay3 k0_pay4 k0_pay5
  exact ⟨shapeCast_apply v _ _ _ e, shapeCast_apply v _ _ _ e, shapeCast_apply v _ _ _ e⟩

end Cert.KernelIdeal.Fold

end
-- ==== Proof.Totals.lean ====
/-
  The three running totals after every grid point, as sums of the items' terms.

  The region finds x and the labels re-laid as [131072,128] arrays (a reshape keeps row-major positions); point t's
  blocks are their rows 2048 t .. 2048 t + 2047, so entry (ρ, q) of point t's block is item (2048 t + ρ) * 128 + q.
  The totals are reset at the points that are multiples of 32 (a core's first) and added to at every other point, so
  after point t each total's entry (p, q) is the sum, over the points 32 (t / 32) .. t of that core so far, of the
  point's folded block at (p, q): an induction over the points, by the library's fold over a run of points.
-/
import proofs.«156055_j14139032338660_2_alg».proof.Proof.Gen.KernelIdeal.Frame
import proofs.«156055_j14139032338660_2_alg».proof.Proof.CasePieces
import proofs.«156055_j14139032338660_2_alg».proof.Proof.BlockFold
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.Terms Cert.KernelIdeal.Fold Cert.KernelIdeal.Pieces

variable (m : (ℓ : Loc nD τ sig) → Buf (Elt Ideal) ℓ) (ρ : Dev nD → PrngReg)

/-! ## The arrays the region finds, and a point's blocks -/

/-- The region finds x re-laid as [131072,128]. -/
theorem V_x (c : Dev nD) : (V m c main_v0 : S131072x128.Idx → EReal)
    = shapeCast S131072x128 (m ((c : Thread nD τ).loc main_arg0)) shapeCasts_S16777216_S131072x128 := by
  show StableHlo.after hostOps0 (fun b => m (c, b)) (Proc.devRef .tc main_v0) = _
  after_results
  rfl

/-- The region finds the labels re-laid as [131072,128]. -/
theorem V_gt (c : Dev nD) : (V m c main_v1 : S131072x128.Idx → BitVec 32)
    = shapeCast S131072x128 (m ((c : Thread nD τ).loc main_arg1)) shapeCasts_S16777216_S131072x128 := by
  show StableHlo.after hostOps0 (fun b => m (c, b)) (Proc.devRef .tc main_v1) = _
  after_results
  rfl

/-- The input windows' block index at point t is (t, 0): decided over the grid. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Item k's x. -/
abbrev xAt (c : Dev nD) (k : Fin 16777216) : EReal := m ((c : Thread nD τ).loc main_arg0) (ix1 k)
/-- Item k's label word. -/
abbrev gtAt (c : Dev nD) (k : Fin 16777216) : BitVec 32 := m ((c : Thread nD τ).loc main_arg1) (ix1 k)

/-- The item at row ρ, lane q of point t's block. -/
def item (t : Fin cfg0.N) (r : Fin 2048) (q : Fin 128) : Fin 16777216 :=
  ⟨(t.val * 2048 + r.val) * 128 + q.val, by
    have := lt_of_lt_of_eq t.isLt (show cfg0.N = 64 from N_0); have := r.isLt; have := q.isLt; omega⟩

/-- Point t's block of x, entry by entry. -/
theorem iblk_x (c : Dev nD) (t : Fin cfg0.N) (r : Fin 2048) (q : Fin 128) :
    (iblk m c 0 t : Vec Ideal S2048x128 .f32) (ix2 r q) = xAt m c (item t r q) := by
  obtain ⟨e0, e1, -, -⟩ := in_index t
  unfold iblk
  rw [View.read_apply]
  show (V m c main_v0 : S131072x128.Idx → EReal) (((cfg0.win 0).blk t).view.emb (ix2 r q)) = _
  rw [V_x]
  refine shapeCast_apply _ _ _ _ ?_
  show (S16777216.rowMajor (ix1 (item t r q))).val
    = (S131072x128.rowMajor (((cfg0.win 0).blk t).view.emb (ix2 r q))).val
  rw [Shape.rowMajor_val_one, Shape.rowMajor_val_two]
  show (t.val * 2048 + r.val) * 128 + q.val
    = (win0_0.index t (0 : Fin 2) * 2048 + 1 * r.val) * 128 + (win0_0.index t (1 : Fin 2) * 128 + 1 * q.val)
  rw [e0, e1]; omega

/-- Point t's block of labels, entry by entry. -/
theorem iblk_gt (c : Dev nD) (t : Fin cfg0.N) (r : Fin 2048) (q : Fin 128) :
    (iblk m c 1 t : Vec Ideal S2048x128 .i32) (ix2 r q) = gtAt m c (item t r q) := by
  obtain ⟨-, -, e0, e1⟩ := in_index t
  unfold iblk
  rw [View.read_apply]
  show (V m c main_v1 : S131072x128.Idx → BitVec 32) (((cfg0.win 1).blk t).view.emb (ix2 r q)) = _
  rw [V_gt]
  refine shapeCast_apply _ _ _ _ ?_
  show (S16777216.rowMajor (ix1 (item t r q))).val
    = (S131072x128.rowMajor (((cfg0.win 1).blk t).view.emb (ix2 r q))).val
  rw [Shape.rowMajor_val_one, Shape.rowMajor_val_two]
  show (t.val * 2048 + r.val) * 128 + q.val
    = (win0_1.index t (0 : Fin 2) * 2048 + 1 * r.val) * 128 + (win0_1.index t (1 : Fin 2) * 128 + 1 * q.val)
  rw [e0, e1]; omega

/-! ## The three totals after each point -/

/-- Entry (p, q) of the three totals (labels, label-1 terms, label-0 terms) after point n. -/
def entry (c : Dev nD) (n : ℕ) (h : n < cfg0.N) (i : Fin 8 × Fin 128) : EReal × EReal × EReal :=
  ((outsAt0 m c n h).2.2.2.1 (ix2 i.1 i.2), (outsAt0 m c n h).2.2.2.2.1 (ix2 i.1 i.2),
    (outsAt0 m c n h).2.2.2.2.2 (ix2 i.1 i.2))

/-- What point n adds to entry (p, q) of the three totals: the sums over the chunks r of the three terms of the item
    at row 8 r + p, lane q of the point's blocks (zero past the grid, where it is never used). -/
def addend (c : Dev nD) (n : ℕ) (i : Fin 8 × Fin 128) : EReal × EReal × EReal :=
  if h : n < cfg0.N then
    (∑ r : Fin 256, lab (gtAt m c (item ⟨n, h⟩ (row r i.1) i.2)),
      ∑ r : Fin 256, termA (xAt m c (item ⟨n, h⟩ (row r i.1) i.2)) (gtAt m c (item ⟨n, h⟩ (row r i.1) i.2)),
      ∑ r : Fin 256, termB (xAt m c (item ⟨n, h⟩ (row r i.1) i.2)) (gtAt m c (item ⟨n, h⟩ (row r i.1) i.2)))
  else 0

/-- One point's three additions at entry (p, q), from any totals `a0 a1 a2` it starts from. -/
theorem add_point (c : Dev nD) (n : ℕ) (h : n < cfg0.N) (a0 a1 a2 : Vec Ideal S8x128 .f32) (i : Fin 8 × Fin 128) :
    (k0_pay12 (F := Ideal) (iblk m c 1 ⟨n, h⟩) a0 (ix2 i.1 i.2),
      k0_pay1 (F := Ideal) (k0_pay13 (iblk m c 0 ⟨n, h⟩) (iblk m c 1 ⟨n, h⟩) a1) (ix2 i.1 i.2),
      k0_pay2 (F := Ideal) (k0_pay11 (iblk m c 0 ⟨n, h⟩) (iblk m c 1 ⟨n, h⟩)) a2 (ix2 i.1 i.2))
      = (a0 (ix2 i.1 i.2), a1 (ix2 i.1 i.2), a2 (ix2 i.1 i.2)) + addend m c n i := by
  rw [total_s_apply, total_a_apply, total_b_apply]
  unfold addend
  rw [dif_pos h]
  simp only [iblk_x, iblk_gt]
  rfl

/-- A core's first point: the totals are this point's addends. -/
theorem entry_first (c : Dev nD) (n : ℕ) (h : n < cfg0.N) (hn : n % 32 = 0) :
    entry m c n h = fun i => 0 + addend m c n i := by
  have hN : n < 64 := lt_of_lt_of_eq h (show cfg0.N = 64 from N_0)
  have h31 : ¬(⟨n, h⟩ : Fin cfg0.N).val % 32 = 31 := by dsimp only; omega
  funext i
  unfold entry
  rw [show outsAt0 m c n h = outsAt0 m c (⟨n, h⟩ : Fin cfg0.N).val (⟨n, h⟩ : Fin cfg0.N).isLt from rfl,
    outsAt0_A m c ⟨n, h⟩ hn h31]
  dsimp only
  rw [first_s, first_a, first_b, add_point]
  rw [(zero_block_apply _).1, (zero_block_apply _).2.1, (zero_block_apply _).2.2]
  rfl

/-- Every other point: the totals the point before left, plus this point's addends. -/
theorem entry_step (c : Dev nD) (n : ℕ) (h : n + 1 < cfg0.N) (hn : ¬(n + 1) % 32 = 0) :
    entry m c (n + 1) h = fun i => entry m c n (Nat.lt_of_succ_lt h) i + addend m c (n + 1) i := by
  funext i
  unfold entry
  by_cases h31 : (n + 1) % 32 = 31
  · rw [show outsAt0 m c (n + 1) h = outsAt0 m c (⟨n + 1, h⟩ : Fin cfg0.N).val (⟨n + 1, h⟩ : Fin cfg0.N).isLt from rfl,
      outsAt0_C m c ⟨n + 1, h⟩ hn h31]
    dsimp only
    rw [last_s, last_a, last_b, add_point]
    rfl
  · rw [show outsAt0 m c (n + 1) h = outsAt0 m c (⟨n + 1, h⟩ : Fin cfg0.N).val (⟨n + 1, h⟩ : Fin cfg0.N).isLt from rfl,
      outsAt0_B m c ⟨n + 1, h⟩ hn h31]
    dsimp only
    rw [mid_s, mid_a, mid_b, add_point]
    rfl

/-- After point t the totals are the sums of the addends of the core's points so far, 32 (t / 32) .. t. -/
theorem entry_eq (c : Dev nD) (t : ℕ) (ht : t < cfg0.N) (i : Fin 8 × Fin 128) :
    entry m c t ht i = 0 + ∑ s ∈ Finset.range (t % 32 + 1), addend m c (32 * (t / 32) + s) i := by
  have h' : 32 * (t / 32) + t % 32 < cfg0.N := by rw [Nat.div_add_mod]; exact ht
  rw [Pipeline.eq_accAt_of_mod (entry m c) 32 (fun n _ i => 0 + addend m c n i)
    (fun n _ acc i => acc i + addend m c n i) (entry_first m c) (entry_step m c) (by decide) t ht h']
  exact Pipeline.accAt_add_apply _ _ (fun _ => 0) (addend m c) (32 * (t / 32)) 31 (fun _ _ => rfl)
    (fun _ _ _ _ _ _ => rfl) (t % 32) (by omega) h' i

end Cert.KernelIdeal.Totals

end
-- ==== Proof.WeightedSums.lean ====
/-
  Class-weighted sums of binary-labelled terms, over the extended reals.

  Every item i carries a label b i that is 0 or 1, and two extended reals u i, v i (its two clamped logarithms).
  With s the number of items labelled 1 among n, the class weights are
      pa = n * n / (n - s) / 2 / s,     w0 = pa * s / n,     w1 = pa * (n - s) / n,
  every quotient the extended reals' (x / 0 is an infinity of x's sign).  Weighting item by item, w0 on label 0 and
  w1 on label 1, and summing, gives the same extended real as summing the label-1 terms and the label-0 terms apart
  and weighting the two totals:
      sum_i (if b i = 0 then w0 else w1) * -(b i * u i + (1 - b i) * v i)
        = w1 * sum_i b i * (0 - u i)  +  w0 * sum_i (1 - b i) * (0 - v i).
  Item by item the two sides agree because one of b i, 1 - b i is 0 and the other 1.  Moving a weight out of a sum
  is where the extended reals need care: x * (y + z) = x * y + x * z can fail for an infinite x.  It holds for
  every y, z when x is a nonnegative real, and trivially when every summand is 0.  That is enough: if no item is
  labelled 1 the label-1 terms all vanish, otherwise 0 < s <= n and w1 is a nonnegative real (it is 0 at s = n, for
  then n - s = 0); symmetrically for w0 and the label-0 terms.  No term u i, v i needs to be finite.
-/
import Idealize.ShloMosaic.PureOps.Ideal

noncomputable section

namespace Cert.WeightedSums

open Idealize.ShloMosaic

variable {ι : Type*}

/-- The coercion of a finite sum of reals is the sum of the coercions. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves into a finite sum of arbitrary extended reals. -/
theorem mul_sum_of_nonneg (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- Any factor moves into a finite sum whose summands are all zero. -/
theorem mul_sum_of_zero (w : EReal) (s : Finset ι) (f : ι → EReal) (hf : ∀ i, f i = 0) :
    w * ∑ i ∈ s, f i = ∑ i ∈ s, w * f i := by
  rw [Finset.sum_eq_zero (fun i _ => hf i), Finset.sum_eq_zero (fun i _ => by rw [hf i, mul_zero]), mul_zero]

/-- The quotient of two reals, the divisor not zero, is the real quotient. -/
theorem div_real {b : ℝ} (hb : b ≠ 0) (a : ℝ) : Ideal.div (a : EReal) (b : EReal) = ((a / b : ℝ) : EReal) := by
  rw [Ideal.div_coe hb, ← EReal.coe_mul, mul_one_div]

/-- Zero divided by a real that is not zero is zero. -/
theorem zero_div_real {b : ℝ} (hb : b ≠ 0) : Ideal.div 0 (b : EReal) = 0 := by
  rw [Ideal.div_coe hb, zero_mul]

/-- `pa = n * n / (n - s) / 2 / s`. -/
def pa (n two s : EReal) : EReal := Ideal.div (Ideal.div (Ideal.div (n * n) (n - s)) two) s
/-- The weight of label 0: `pa * s / n`. -/
def w0 (n two s : EReal) : EReal := Ideal.div (pa n two s * s) n
/-- The weight of label 1: `pa * (n - s) / n`. -/
def w1 (n two s : EReal) : EReal := Ideal.div (pa n two s * (n - s)) n

/-- For a real count `0 < s ≤ n` the weight of label 1 is a nonnegative real (zero at `s = n`). -/
theorem w1_real {n s : ℝ} (hn : 0 < n) (hs : 0 < s) (hsn : s ≤ n) :
    ∃ r : ℝ, 0 ≤ r ∧ w1 (n : EReal) ((2 : ℝ) : EReal) (s : EReal) = (r : EReal) := by
  rcases eq_or_lt_of_le hsn with rfl | hlt
  · refine ⟨0, le_rfl, ?_⟩
    unfold w1
    rw [← EReal.coe_sub, sub_self, EReal.coe_zero, mul_zero, zero_div_real hn.ne']
  · have hd : 0 < n - s := sub_pos.mpr hlt
    refine ⟨n * n / (n - s) / 2 / s * (n - s) / n,
      div_nonneg (mul_nonneg (div_nonneg (div_nonneg (div_nonneg (mul_nonneg hn.le hn.le) hd.le) zero_le_two) hs.le)
        hd.le) hn.le, ?_⟩
    unfold w1 pa
    rw [← EReal.coe_mul, ← EReal.coe_sub, div_real hd.ne', div_real two_ne_zero, div_real hs.ne', ← EReal.coe_mul,
      div_real hn.ne']

/-- For a real count `0 ≤ s < n` the weight of label 0 is a nonnegative real (zero at `s = 0`). -/
theorem w0_real {n s : ℝ} (hn : 0 < n) (hs : 0 ≤ s) (hsn : s < n) :
    ∃ r : ℝ, 0 ≤ r ∧ w0 (n : EReal) ((2 : ℝ) : EReal) (s : EReal) = (r : EReal) := by
  rcases eq_or_lt_of_le hs with rfl | hpos
  · refine ⟨0, le_rfl, ?_⟩
    unfold w0
    rw [EReal.coe_zero, mul_zero, zero_div_real hn.ne']
  · have hd : 0 < n - s := sub_pos.mpr hsn
    refine ⟨n * n / (n - s) / 2 / s * s / n,
      div_nonneg (mul_nonneg (div_nonneg (div_nonneg (div_nonneg (mul_nonneg hn.le hn.le) hd.le) zero_le_two) hpos.le)
        hpos.le) hn.le, ?_⟩
    unfold w0 pa
    rw [← EReal.coe_mul, ← EReal.coe_sub, div_real hd.ne', div_real two_ne_zero, div_real hpos.ne', ← EReal.coe_mul,
      div_real hn.ne']

variable [Fintype ι]

/-- Labels that are 0 or 1 and sum to zero are all 0. -/
theorem all_zero_of_sum_eq_zero (b : ι → ℝ) (hb : ∀ i, b i = 0 ∨ b i = 1) (h : ∑ i, b i = 0) : ∀ i, b i = 0 := by
  have hnn : ∀ i ∈ Finset.univ, 0 ≤ b i := fun i _ => by rcases hb i with h | h <;> rw [h]; exact zero_le_one
  exact fun i => (Finset.sum_eq_zero_iff_of_nonneg hnn).mp h i (Finset.mem_univ i)

/-- Labels that are 0 or 1 and sum to the number of items are all 1. -/
theorem all_one_of_sum_eq_card (b : ι → ℝ) (hb : ∀ i, b i = 0 ∨ b i = 1) (h : ∑ i, b i = (Fintype.card ι : ℝ)) :
    ∀ i, b i = 1 := by
  have hnn : ∀ i ∈ Finset.univ, 0 ≤ 1 - b i := fun i _ => by rcases hb i with h | h <;> rw [h] <;> norm_num
  have hz : ∑ i, (1 - b i) = 0 := by
    rw [Finset.sum_sub_distrib, h, Finset.sum_const, Finset.card_univ, nsmul_eq_mul, mul_one, sub_self]
  exact fun i => (sub_eq_zero.mp ((Finset.sum_eq_zero_iff_of_nonneg hnn).mp hz i (Finset.mem_univ i))).symm

/-- The count of labels 1 lies between 0 and the number of items. -/
theorem sum_bounds (b : ι → ℝ) (hb : ∀ i, b i = 0 ∨ b i = 1) : 0 ≤ ∑ i, b i ∧ ∑ i, b i ≤ (Fintype.card ι : ℝ) := by
  refine ⟨Finset.sum_nonneg fun i _ => by rcases hb i with h | h <;> rw [h]; exact zero_le_one, ?_⟩
  calc ∑ i, b i ≤ ∑ _i : ι, (1 : ℝ) := Finset.sum_le_sum fun i _ => by rcases hb i with h | h <;> rw [h]; exact zero_le_one
    _ = (Fintype.card ι : ℝ) := by rw [Finset.sum_const, Finset.card_univ, nsmul_eq_mul, mul_one]

/-- THE IDENTITY: weighting item by item and summing is weighting the two class totals. -/
theorem labelled_sum (b : ι → ℝ) (hb : ∀ i, b i = 0 ∨ b i = 1) (N : ℝ) (hN : N = (Fintype.card ι : ℝ)) (hpos : 0 < N)
    (u v : ι → EReal) :
    ∑ i, (if (b i : EReal) = 0 then w0 (N : EReal) ((2 : ℝ) : EReal) (∑ i, (b i : EReal))
            else w1 (N : EReal) ((2 : ℝ) : EReal) (∑ i, (b i : EReal)))
          * -((b i : EReal) * u i + (1 - (b i : EReal)) * v i)
      = w1 (N : EReal) ((2 : ℝ) : EReal) (∑ i, (b i : EReal)) * ∑ i, (b i : EReal) * (0 - u i)
        + w0 (N : EReal) ((2 : ℝ) : EReal) (∑ i, (b i : EReal)) * ∑ i, (1 - (b i : EReal)) * (0 - v i) := by
  rw [← coe_sum]
  generalize hS : ∑ i, b i = S
  obtain ⟨hS0, hSN⟩ := sum_bounds b hb
  rw [hS] at hS0 hSN
  rw [← hN] at hSN
  set W0 := w0 (N : EReal) ((2 : ℝ) : EReal) (S : EReal) with hW0
  set W1 := w1 (N : EReal) ((2 : ℝ) : EReal) (S : EReal) with hW1
  -- item by item
  have hitem : ∀ i, (if (b i : EReal) = 0 then W0 else W1) * -((b i : EReal) * u i + (1 - (b i : EReal)) * v i)
      = W1 * ((b i : EReal) * (0 - u i)) + W0 * ((1 - (b i : EReal)) * (0 - v i)) := by
    intro i
    rcases hb i with h | h
    · rw [h, EReal.coe_zero, if_pos rfl, zero_mul, zero_mul, zero_add, sub_zero, one_mul, one_mul, mul_zero, zero_add,
        zero_sub]
    · have h11 : (1 : EReal) - 1 = 0 := by rw [← EReal.coe_one, ← EReal.coe_sub, sub_self, EReal.coe_zero]
      rw [h, EReal.coe_one, if_neg one_ne_zero, h11, one_mul, zero_mul, zero_mul, add_zero, mul_zero, add_zero, one_mul,
        zero_sub]
  rw [Finset.sum_congr rfl fun i _ => hitem i, Finset.sum_add_distrib]
  congr 1
  · -- the weight of label 1 out of the label-1 terms
    rcases eq_or_lt_of_le hS0 with h0 | hpos'
    · have hall := all_zero_of_sum_eq_zero b hb (hS.trans h0.symm)
      exact (mul_sum_of_zero W1 _ _ fun i => by rw [hall i, EReal.coe_zero, zero_mul]).symm
    · obtain ⟨r, hr, e⟩ := w1_real hpos hpos' hSN
      rw [hW1, e]
      exact (mul_sum_of_nonneg r hr _ _).symm
  · -- the weight of label 0 out of the label-0 terms
    rcases eq_or_lt_of_le hSN with hN' | hlt
    · have hall := all_one_of_sum_eq_card b hb (hS.trans (hN'.trans hN))
      have h11 : (1 : EReal) - 1 = 0 := by rw [← EReal.coe_one, ← EReal.coe_sub, sub_self, EReal.coe_zero]
      exact (mul_sum_of_zero W0 _ _ fun i => by rw [hall i, EReal.coe_one, h11, zero_mul]).symm
    · obtain ⟨r, hr, e⟩ := w0_real hpos hS0 hlt
      rw [hW0, e]
      exact (mul_sum_of_nonneg r hr _ _).symm

end Cert.WeightedSums

end
-- ==== Proof.KernelValue.lean ====
/-
  The kernel's three output arrays and its result.

  Output block c' (one per core) is written back once, after the core's last point 32 c' + 31, and holds the three
  totals then: entry (c', p, q) is the sum over the core's 32 points of the point's addend at (p, q).  The blocks tile
  the [2,8,128] arrays.  The host lines after the region sum each array to a scalar and combine the three scalars.
-/
import proofs.«156055_j14139032338660_2_alg».proof.Proof.Totals
import proofs.«156055_j14139032338660_2_alg».proof.Proof.WeightedSums

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Terms Cert.KernelIdeal.Fold Cert.KernelIdeal.Pieces
  Cert.KernelIdeal.Totals

variable (m : (ℓ : Loc nD τ sig) → Buf (Elt Ideal) ℓ) (ρ : Dev nD → PrngReg)

/-- Core c''s three totals at entry (p, q) after its last point. -/
def part (c : Dev nD) (c' : Fin 2) (p : Fin 8) (q : Fin 128) : EReal × EReal × EReal :=
  0 + ∑ s ∈ Finset.range 32, addend m c (32 * c'.val + s) (p, q)

/-- The array of label totals. -/
def outS (c : Dev nD) : S2x8x128.Idx → EReal := fun j => (part m c (j 0) (j 1) (j 2)).1
/-- The array of label-1 totals. -/
def outA (c : Dev nD) : S2x8x128.Idx → EReal := fun j => (part m c (j 0) (j 1) (j 2)).2.1
/-- The array of label-0 totals. -/
def outB (c : Dev nD) : S2x8x128.Idx → EReal := fun j => (part m c (j 0) (j 1) (j 2)).2.2

/-- An index of a [2,8,128] array is its three coordinates. -/
theorem idx_of_vals (j : S2x8x128.Idx) (c' : Fin 2) (p : Fin 8) (q : Fin 128) (h0 : (j 0).val = c'.val)
    (h1 : (j 1).val = p.val) (h2 : (j 2).val = q.val) : j = ix3 c' p q := by
  funext a
  match a with
  | ⟨0, _⟩ => exact Fin.ext h0
  | ⟨1, _⟩ => exact Fin.ext h1
  | ⟨2, _⟩ => exact Fin.ext h2

/-- The output windows' block index at point t is (t / 32, 0, 0): decided over the grid. -/
theorem out_index : ∀ t : Fin cfg0.N,
    win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

/-- At a core's last point each output block holds the matching total. -/
theorem after_last (c : Dev nD) (t : Fin cfg0.N) (h0 : ¬t.val % 32 = 0) (h31 : t.val % 32 = 31) :
    (outsAt0 m c t.val t.isLt).1 = k0_pay3 ((outsAt0 m c t.val t.isLt).2.2.2.1)
    ∧ (outsAt0 m c t.val t.isLt).2.1 = k0_pay4 ((outsAt0 m c t.val t.isLt).2.2.2.2.1)
    ∧ (outsAt0 m c t.val t.isLt).2.2.1 = k0_pay5 ((outsAt0 m c t.val t.isLt).2.2.2.2.2) := by
  rw [outsAt0_C m c t h0 h31]
  dsimp only
  rw [out_s, out_a, out_b, last_s, last_a, last_b]
  exact ⟨rfl, rfl, rfl⟩

/-- The totals after a core's last point, entry by entry. -/
theorem entry_last (c : Dev nD) (t : Fin cfg0.N) (h31 : t.val % 32 = 31) (p : Fin 8) (q : Fin 128) :
    entry m c t.val t.isLt (p, q) = part m c ⟨t.val / 32, by
      have := lt_of_lt_of_eq t.isLt (show cfg0.N = 64 from N_0); omega⟩ p q := by
  rw [entry_eq, h31]
  rfl

/-! ## The three arrays after the run -/

theorem flushed_s (c : Dev nD) (t : Fin cfg0.N) (hf : (cfg0.win 2).flush t = true) :
    (dats m 0 c).flushed 2 t = ((cfg0.win 2).blk t).view.read (Elt Ideal) (outS m c) := by
  have hN : t.val < 64 := lt_of_lt_of_eq t.isLt (show cfg0.N = 64 from N_0)
  have h31 : t.val % 32 = 31 := (flush0_2 t).mp hf
  obtain ⟨e0, e1, e2, -⟩ := out_index t
  show (cfg0.win 2).cut (grid0.coords t) ((dats m 0 c).after 2 t) = _
  rw [after0_2, (after_last m c t (by omega) h31).1]
  funext y
  obtain ⟨u, p, q, rfl⟩ : ∃ (u : Fin 1) (p : Fin 8) (q : Fin 128), y = ix3 u p q := ⟨y 0, y 1, y 2, eq_ix3 y⟩
  rw [View.read_apply]
  refine ((copy_apply _ u p q).1.trans ?_).trans (congrArg (outS m c) (idx_of_vals _ ⟨t.val / 32, by omega⟩ p q ?_ ?_ ?_)).symm
  · exact congrArg Prod.fst (entry_last m c t h31 p q)
  · show win0_2.index t (0 : Fin 3) * 1 + 1 * u.val = t.val / 32
    rw [e0]; have := u.isLt; omega
  · show win0_2.index t (1 : Fin 3) * 8 + 1 * p.val = p.val
    rw [e1]; omega
  · show win0_2.index t (2 : Fin 3) * 128 + 1 * q.val = q.val
    rw [e2]; omega

theorem flushed_a (c : Dev nD) (t : Fin cfg0.N) (hf : (cfg0.win 3).flush t = true) :
    (dats m 0 c).flushed 3 t = ((cfg0.win 3).blk t).view.read (Elt Ideal) (outA m c) := by
  have hN : t.val < 64 := lt_of_lt_of_eq t.isLt (show cfg0.N = 64 from N_0)
  have h31 : t.val % 32 = 31 := (flush0_3 t).mp hf
  obtain ⟨-, -, -, e0, e1, e2, -⟩ := out_index t
  show (cfg0.win 3).cut (grid0.coords t) ((dats m 0 c).after 3 t) = _
  rw [after0_3, (after_last m c t (by omega) h31).2.1]
  funext y
  obtain ⟨u, p, q, rfl⟩ : ∃ (u : Fin 1) (p : Fin 8) (q : Fin 128), y = ix3 u p q := ⟨y 0, y 1, y 2, eq_ix3 y⟩
  rw [View.read_apply]
  refine ((copy_apply _ u p q).2.1.trans ?_).trans (congrArg (outA m c) (idx_of_vals _ ⟨t.val / 32, by omega⟩ p q ?_ ?_ ?_)).symm
  · exact congrArg (fun z => z.2.1) (entry_last m c t h31 p q)
  · show win0_3.index t (0 : Fin 3) * 1 + 1 * u.val = t.val / 32
    rw [e0]; have := u.isLt; omega
  · show win0_3.index t (1 : Fin 3) * 8 + 1 * p.val = p.val
    rw [e1]; omega
  · show win0_3.index t (2 : Fin 3) * 128 + 1 * q.val = q.val
    rw [e2]; omega

theorem flushed_b (c : Dev nD) (t : Fin cfg0.N) (hf : (cfg0.win 4).flush t = true) :
    (dats m 0 c).flushed 4 t = ((cfg0.win 4).blk t).view.read (Elt Ideal) (outB m c) := by
  have hN : t.val < 64 := lt_of_lt_of_eq t.isLt (show cfg0.N = 64 from N_0)
  have h31 : t.val % 32 = 31 := (flush0_4 t).mp hf
  obtain ⟨-, -, -, -, -, -, e0, e1, e2⟩ := out_index t
  show (cfg0.win 4).cut (grid0.coords t) ((dats m 0 c).after 4 t) = _
  rw [after0_4, (after_last m c t (by omega) h31).2.2]
  funext y
  obtain ⟨u, p, q, rfl⟩ : ∃ (u : Fin 1) (p : Fin 8) (q : Fin 128), y = ix3 u p q := ⟨y 0, y 1, y 2, eq_ix3 y⟩
  rw [View.read_apply]
  refine ((copy_apply _ u p q).2.2.trans ?_).trans (congrArg (outB m c) (idx_of_vals _ ⟨t.val / 32, by omega⟩ p q ?_ ?_ ?_)).symm
  · exact congrArg (fun z => z.2.2) (entry_last m c t h31 p q)
  · show win0_4.index t (0 : Fin 3) * 1 + 1 * u.val = t.val / 32
    rw [e0]; have := u.isLt; omega
  · show win0_4.index t (1 : Fin 3) * 8 + 1 * p.val = p.val
    rw [e1]; omega
  · show win0_4.index t (2 : Fin 3) * 128 + 1 * q.val = q.val
    rw [e2]; omega

/-- The last point of the core that owns index i's block. -/
def lastPoint (i : S2x8x128.Idx) : Fin cfg0.N :=
  ⟨32 * (i 0).val + 31, by
    have h : (i 0).val < 2 := (i 0).isLt
    rw [show cfg0.N = 64 from N_0]; omega⟩

theorem lastPoint_mod (i : S2x8x128.Idx) : (lastPoint i).val % 32 = 31 := by
  show (32 * (i 0).val + 31) % 32 = 31
  omega

theorem lastPoint_div (i : S2x8x128.Idx) : (lastPoint i).val / 32 = (i 0).val := by
  show (32 * (i 0).val + 31) / 32 = (i 0).val
  omega

/-- Every index of an output array is in the block its core's last point writes back. -/
theorem cover_s (c : Dev nD) (i : S2x8x128.Idx) :
    ∃ t : Fin cfg0.N, (cfg0.win 2).flush t = true ∧ i ∈ ((cfg0.win 2).blk t).view.set := by
  have h1 : (i 1).val < 8 := (i 1).isLt
  have h2 : (i 2).val < 128 := (i 2).isLt
  obtain ⟨e0, e1, e2, -⟩ := out_index (lastPoint i)
  refine ⟨lastPoint i, (flush0_2 _).mpr (lastPoint_mod i), ?_⟩
  show i ∈ ((View.whole main_v2_0).slice (win0_2.rect (lastPoint i))).set
  rw [View.set_slice_whole, Rect.mem_set_unit]
  intro a
  match a with
  | ⟨0, _⟩ =>
    show win0_2.index (lastPoint i) (0 : Fin 3) * 1 ≤ (i 0).val ∧ (i 0).val < win0_2.index (lastPoint i) (0 : Fin 3) * 1 + 1
    rw [e0, lastPoint_div]; omega
  | ⟨1, _⟩ =>
    show win0_2.index (lastPoint i) (1 : Fin 3) * 8 ≤ (i 1).val ∧ (i 1).val < win0_2.index (lastPoint i) (1 : Fin 3) * 8 + 8
    rw [e1]; omega
  | ⟨2, _⟩ =>
    show win0_2.index (lastPoint i) (2 : Fin 3) * 128 ≤ (i 2).val ∧ (i 2).val < win0_2.index (lastPoint i) (2 : Fin 3) * 128 + 128
    rw [e2]; omega

theorem cover_a (c : Dev nD) (i : S2x8x128.Idx) :
    ∃ t : Fin cfg0.N, (cfg0.win 3).flush t = true ∧ i ∈ ((cfg0.win 3).blk t).view.set := by
  have h1 : (i 1).val < 8 := (i 1).isLt
  have h2 : (i 2).val < 128 := (i 2).isLt
  obtain ⟨-, -, -, e0, e1, e2, -⟩ := out_index (lastPoint i)
  refine ⟨lastPoint i, (flush0_3 _).mpr (lastPoint_mod i), ?_⟩
  show i ∈ ((View.whole main_v2_1).slice (win0_3.rect (lastPoint i))).set
  rw [View.set_slice_whole, Rect.mem_set_unit]
  intro a
  match a with
  | ⟨0, _⟩ =>
    show win0_3.index (lastPoint i) (0 : Fin 3) * 1 ≤ (i 0).val ∧ (i 0).val < win0_3.index (lastPoint i) (0 : Fin 3) * 1 + 1
    rw [e0, lastPoint_div]; omega
  | ⟨1, _⟩ =>
    show win0_3.index (lastPoint i) (1 : Fin 3) * 8 ≤ (i 1).val ∧ (i 1).val < win0_3.index (lastPoint i) (1 : Fin 3) * 8 + 8
    rw [e1]; omega
  | ⟨2, _⟩ =>
    show win0_3.index (lastPoint i) (2 : Fin 3) * 128 ≤ (i 2).val ∧ (i 2).val < win0_3.index (lastPoint i) (2 : Fin 3) * 128 + 128
    rw [e2]; omega

theorem cover_b (c : Dev nD) (i : S2x8x128.Idx) :
    ∃ t : Fin cfg0.N, (cfg0.win 4).flush t = true ∧ i ∈ ((cfg0.win 4).blk t).view.set := by
  have h1 : (i 1).val < 8 := (i 1).isLt
  have h2 : (i 2).val < 128 := (i 2).isLt
  obtain ⟨-, -, -, -, -, -, e0, e1, e2⟩ := out_index (lastPoint i)
  refine ⟨lastPoint i, (flush0_4 _).mpr (lastPoint_mod i), ?_⟩
  show i ∈ ((View.whole main_v2_2).slice (win0_4.rect (lastPoint i))).set
  rw [View.set_slice_whole, Rect.mem_set_unit]
  intro a
  match a with
  | ⟨0, _⟩ =>
    show win0_4.index (lastPoint i) (0 : Fin 3) * 1 ≤ (i 0).val ∧ (i 0).val < win0_4.index (lastPoint i) (0 : Fin 3) * 1 + 1
    rw [e0, lastPoint_div]; omega
  | ⟨1, _⟩ =>
    show win0_4.index (lastPoint i) (1 : Fin 3) * 8 ≤ (i 1).val ∧ (i 1).val < win0_4.index (lastPoint i) (1 : Fin 3) * 8 + 8
    rw [e1]; omega
  | ⟨2, _⟩ =>
    show win0_4.index (lastPoint i) (2 : Fin 3) * 128 ≤ (i 2).val ∧ (i 2).val < win0_4.index (lastPoint i) (2 : Fin 3) * 128 + 128
    rw [e2]; omega

/-- The three arrays after the run. -/
theorem final_s (c : Dev nD) : (dats m 0 c).arrAt 2 cfg0.N = outS m c :=
  (dats m 0 c).arrAt_eq_of_cover 2 (outS m c) (fun t hf => flushed_s m c t hf) (cover_s c)
theorem final_a (c : Dev nD) : (dats m 0 c).arrAt 3 cfg0.N = outA m c :=
  (dats m 0 c).arrAt_eq_of_cover 3 (outA m c) (fun t hf => flushed_a m c t hf) (cover_a c)
theorem final_b (c : Dev nD) : (dats m 0 c).arrAt 4 cfg0.N = outB m c :=
  (dats m 0 c).arrAt_eq_of_cover 4 (outB m c) (fun t hf => flushed_b m c t hf) (cover_b c)

/-! ## The host lines after the region -/

/-- The host lines after the region, as one function of the three summed scalars: the class weights from the first,
    applied to the other two, over the number of items. -/
def tailV (S A B : FVec Ideal S_ .f32) : FVec Ideal S_ .f32 :=
  Host.divf
    (addf
      (mulf
        (Host.divf
          (mulf
            (Host.divf
              (Host.divf
                (Host.divf (mulf (constant S_ .f32 0x4B800000#32) (constant S_ .f32 0x4B800000#32))
                  (subf (constant S_ .f32 0x4B800000#32) S))
                (constant S_ .f32 0x40000000#32))
              S)
            (subf (constant S_ .f32 0x4B800000#32) S))
          (constant S_ .f32 0x4B800000#32))
        A)
      (mulf
        (Host.divf
          (mulf
            (Host.divf
              (Host.divf
                (Host.divf (mulf (constant S_ .f32 0x4B800000#32) (constant S_ .f32 0x4B800000#32))
                  (subf (constant S_ .f32 0x4B800000#32) S))
                (constant S_ .f32 0x40000000#32))
              S)
            S)
          (constant S_ .f32 0x4B800000#32))
        B))
    (constant S_ .f32 0x4B800000#32)

theorem tailV_apply (S A B : FVec Ideal S_ .f32) (i : S_.Idx) :
    tailV S A B i = Ideal.div (WeightedSums.w1 cnt two (S i) * A i + WeightedSums.w0 cnt two (S i) * B i) cnt := rfl

/-- A host sum of a whole [2,8,128] array from zero: zero plus the sum of its entries. -/
theorem reduce_total (y : S2x8x128.Idx → EReal) (i : S_.Idx) :
    Host.reduceAdd (F := Ideal) (φ := .f32) y (constant S_ .f32 0x00000000#32) reducesTo_S2x8x128_S_d0_1_2 h_S_ i
      = 0 + ∑ j : S2x8x128.Idx, y j := by
  simp only [Host.reduceAdd, Ideal.hostReduceAdd_def]
  rw [Ideal.hostReduceAdd_total reducesTo_S2x8x128_S_d0_1_2 (fun b => b.elim0) y _ i]
  show Ideal.ofBits .f32 0x00000000#32 + _ = _
  rw [Ideal.ofBits_zero_f32]

set_option maxRecDepth 8192 in
set_option maxHeartbeats 2000000 in
/-- The result buffer after the host lines: the tail of the three arrays' sums. -/
theorem tail_value (c : Dev nD) :
    (Pipeline.afterTail₀ cfgs (dats m) 0 (V0 m) [hostOps1] c main_v19 : S_.Idx → EReal)
      = tailV (Host.reduceAdd (F := Ideal) (φ := .f32) (outS m c) (constant S_ .f32 0x00000000#32) reducesTo_S2x8x128_S_d0_1_2 h_S_)
          (Host.reduceAdd (F := Ideal) (φ := .f32) (outA m c) (constant S_ .f32 0x00000000#32) reducesTo_S2x8x128_S_d0_1_2 h_S_)
          (Host.reduceAdd (F := Ideal) (φ := .f32) (outB m c) (constant S_ .f32 0x00000000#32) reducesTo_S2x8x128_S_d0_1_2 h_S_) := by
  have hs : (Pipeline.withArrays (cfgs 0).spec c (V0 m c) (fun w => (dats m 0 c).arrAt w (cfgs 0).N)
      (Proc.devRef .tc main_v2_0) : S2x8x128.Idx → EReal) = outS m c :=
    (Pipeline.withArrays_arr spec0 launch0.win.arr_inj c _ _ 2).trans (final_s m c)
  have ha : (Pipeline.withArrays (cfgs 0).spec c (V0 m c) (fun w => (dats m 0 c).arrAt w (cfgs 0).N)
      (Proc.devRef .tc main_v2_1) : S2x8x128.Idx → EReal) = outA m c :=
    (Pipeline.withArrays_arr spec0 launch0.win.arr_inj c _ _ 3).trans (final_a m c)
  have hb : (Pipeline.withArrays (cfgs 0).spec c (V0 m c) (fun w => (dats m 0 c).arrAt w (cfgs 0).N)
      (Proc.devRef .tc main_v2_2) : S2x8x128.Idx → EReal) = outB m c :=
    (Pipeline.withArrays_arr spec0 launch0.win.arr_inj c _ _ 4).trans (final_b m c)
  unfold Pipeline.afterTail₀
  show StableHlo.after (hostOps1 (F := Ideal)) _ (Proc.devRef .tc main_v19) = _
  after_results_simp
  rw [hs, ha, hb]
  rfl

/-! ## The three arrays' sums are the sums over all items -/

/-- The three terms of item k. -/
def terms3 (c : Dev nD) (k : Fin 16777216) : EReal × EReal × EReal :=
  (lab (gtAt m c k), termA (xAt m c k) (gtAt m c k), termB (xAt m c k) (gtAt m c k))

/-- Summed over the cores, sublanes and lanes, the cores' totals are the sums over all items. -/
theorem sum_parts (c : Dev nD) :
    ∑ c' : Fin 2, ∑ p : Fin 8, ∑ q : Fin 128, part m c c' p q = ∑ k : Fin 16777216, terms3 m c k := by
  let Φ : ℕ → EReal × EReal × EReal := fun v => if h : v < 16777216 then terms3 m c ⟨v, h⟩ else 0
  have hpart : ∀ (c' : Fin 2) (p : Fin 8) (q : Fin 128), part m c c' p q
      = ∑ s ∈ Finset.range 32, ∑ r : Fin 256, Φ (((32 * c'.val + s) * 2048 + (8 * r.val + p.val)) * 128 + q.val) := by
    intro c' p q
    unfold part
    rw [zero_add]
    refine Finset.sum_congr rfl fun s hs => ?_
    have hs' : s < 32 := Finset.mem_range.mp hs
    have hlt : 32 * c'.val + s < cfg0.N := by rw [show cfg0.N = 64 from N_0]; have := c'.isLt; omega
    have hΦ : ∀ r : Fin 256, Φ (((32 * c'.val + s) * 2048 + (8 * r.val + p.val)) * 128 + q.val)
        = terms3 m c (item ⟨32 * c'.val + s, hlt⟩ (row r p) q) := by
      intro r
      have hv : ((32 * c'.val + s) * 2048 + (8 * r.val + p.val)) * 128 + q.val < 16777216 :=
        (item ⟨32 * c'.val + s, hlt⟩ (row r p) q).isLt
      show (if h : _ < 16777216 then terms3 m c ⟨_, h⟩ else 0) = _
      rw [dif_pos hv]
      rfl
    unfold addend
    rw [dif_pos hlt]
    simp only [hΦ]
    unfold terms3
    refine Prod.ext ?_ (Prod.ext ?_ ?_) <;> simp only [Prod.fst_sum, Prod.snd_sum]
  simp only [hpart]
  rw [regroup Φ, Finset.sum_range]
  refine Finset.sum_congr rfl fun k _ => ?_
  show (if h : k.val < 16777216 then terms3 m c ⟨k.val, h⟩ else 0) = _
  rw [dif_pos k.isLt]

theorem sum_outS (c : Dev nD) : ∑ j, outS m c j = ∑ k : Fin 16777216, lab (gtAt m c k) := by
  rw [sum_idx3]
  show ∑ a : Fin 2, ∑ b : Fin 8, ∑ q : Fin 128, (part m c a b q).1 = _
  have h := congrArg Prod.fst (sum_parts m c)
  simp only [Prod.fst_sum] at h
  exact h

theorem sum_outA (c : Dev nD) : ∑ j, outA m c j = ∑ k : Fin 16777216, termA (xAt m c k) (gtAt m c k) := by
  rw [sum_idx3]
  show ∑ a : Fin 2, ∑ b : Fin 8, ∑ q : Fin 128, (part m c a b q).2.1 = _
  have h := congrArg (fun z => z.2.1) (sum_parts m c)
  simp only [Prod.fst_sum, Prod.snd_sum] at h
  exact h

theorem sum_outB (c : Dev nD) : ∑ j, outB m c j = ∑ k : Fin 16777216, termB (xAt m c k) (gtAt m c k) := by
  rw [sum_idx3]
  show ∑ a : Fin 2, ∑ b : Fin 8, ∑ q : Fin 128, (part m c a b q).2.2 = _
  have h := congrArg (fun z => z.2.2) (sum_parts m c)
  simp only [Prod.snd_sum] at h
  exact h

/-! ## The kernel's result -/

/-- The kernel's result as one formula over the items. -/
def result (c : Dev nD) : S_.Idx → EReal := fun _ =>
  Ideal.div (WeightedSums.w1 cnt two (0 + ∑ k : Fin 16777216, lab (gtAt m c k))
        * (0 + ∑ k : Fin 16777216, termA (xAt m c k) (gtAt m c k))
      + WeightedSums.w0 cnt two (0 + ∑ k : Fin 16777216, lab (gtAt m c k))
        * (0 + ∑ k : Fin 16777216, termB (xAt m c k) (gtAt m c k))) cnt

theorem tail_result (c : Dev nD) :
    (Pipeline.afterTail₀ cfgs (dats m) 0 (V0 m) [hostOps1] c main_v19 : S_.Idx → EReal) = result m c := by
  rw [tail_value]
  funext i
  rw [tailV_apply, reduce_total, reduce_total, reduce_total, sum_outS, sum_outA, sum_outB]
  rfl

/-- The kernel's run, read: the result at the formula, the arguments unchanged. -/
theorem run : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v19 (Pipeline.mem_restRefs_of main_v19 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result as one formula of the items' terms.

  The reference counts the labels, forms the two class weights from the count, picks item by item the weight of the
  item's label (the label compared with zero), multiplies it by minus (label * clamped log x + (1 - label) * clamped
  log (1 - x)), sums over all items and divides by their number.  Read one operation at a time — first the count,
  then the two weights as functions of the count, then one item's term, then the sum — this is the formula below,
  the weights spelt by `WeightedSums.w0`, `w1` at the count.
-/
import proofs.«156055_j14139032338660_2_alg».proof.Proof.RefReadPatched
import proofs.«156055_j14139032338660_2_alg».proof.Proof.Terms
import proofs.«156055_j14139032338660_2_alg».proof.Proof.WeightedSums

noncomputable section

open Idealize.ShloMosaic

namespace Cert.ReferenceIdeal.RefValue

open Cert.ReferenceIdeal Cert.ReferenceIdeal.Gen Cert.ReferenceIdeal.ReadP Cert.Terms Cert.WeightedSums

variable (x0 : (⟨S16777216, .f32⟩ : BufTy).Contents (Elt Ideal)) (x1 : (⟨S16777216, .i32⟩ : BufTy).Contents (Elt Ideal))

/-- The count of labels: zero plus the sum of the labels. -/
def count : EReal := 0 + ∑ j : S16777216.Idx, lab (x1 j)

theorem label_apply (j : S16777216.Idx) : val_main_v0 (F := Ideal) x1 j = lab (x1 j) := rfl

theorem count_eq (i : S_.Idx) : val_main_v1 (F := Ideal) x1 i = count x1 := by
  rw [val_main_v1_apply, val_main_cst_apply]
  show Ideal.ofBits .f32 0x00000000#32 + _ = _
  rw [Ideal.ofBits_zero_f32]
  rfl

/-- `pa`, from the count. -/
theorem pa_eq (i : S_.Idx) : val_main_v6 (F := Ideal) x1 i = pa cnt two (count x1) := by
  rw [val_main_v6_apply, val_main_v5_apply, val_main_v4_apply, val_main_v3_apply, val_main_v2_apply, count_eq,
    val_main_cst_0_apply, val_main_cst_1_apply, val_main_cst_2_apply, val_main_cst_3_apply]
  rfl

/-- The weight of label 0, from the count. -/
theorem w0_eq (i : S_.Idx) : val_main_v8 (F := Ideal) x1 i = w0 cnt two (count x1) := by
  rw [val_main_v8_apply, val_main_v7_apply, pa_eq, count_eq, val_main_cst_4_apply]
  rfl

/-- The weight of label 1, from the count. -/
theorem w1_eq (i : S_.Idx) : val_main_v11 (F := Ideal) x1 i = w1 cnt two (count x1) := by
  rw [val_main_v11_apply, val_main_v10_apply, val_main_v9_apply, pa_eq, count_eq, val_main_cst_5_apply,
    val_main_cst_6_apply]
  rfl

/-- The weight picked for item j. -/
theorem weight_apply (j : S16777216.Idx) :
    val_main_v14 (F := Ideal) x1 j
      = Scalar.select (Ideal.cmp .oeq (lab (x1 j)) 0) (w0 cnt two (count x1)) (w1 cnt two (count x1)) := by
  rw [val_main_v14_apply, val_main_v13_apply, val_main_call0_v0_apply, val_main_call0_v1_apply, w0_eq, w1_eq,
    val_main_v12_apply, val_main_cst_7_apply, label_apply]
  show Scalar.select (Ideal.cmp .oeq (lab (x1 j)) (Ideal.ofBits .f32 0x00000000#32)) _ _ = _
  rw [Ideal.ofBits_zero_f32]

/-- Item j's clamped logarithms. -/
theorem clampLog_apply (j : S16777216.Idx) : val_main_v17 (F := Ideal) x0 j = clampLog (x0 j) := by
  rw [val_main_v17_apply, val_main_v15_apply, val_main_v16_apply, val_main_cst_8_apply]
  rfl

theorem clampLog1m_apply (j : S16777216.Idx) : val_main_v21 (F := Ideal) x0 j = clampLog1m (x0 j) := by
  rw [val_main_v21_apply, val_main_v19_apply, val_main_v18_apply, val_main_v20_apply, val_main_cst_9_apply]
  rfl

/-- Item j's unweighted term: minus (label * clamped log x + (1 - label) * clamped log (1 - x)). -/
theorem bce_apply (j : S16777216.Idx) :
    val_main_v27 (F := Ideal) x0 x1 j
      = -(lab (x1 j) * clampLog (x0 j) + (1 - lab (x1 j)) * clampLog1m (x0 j)) := by
  rw [val_main_v27_apply, val_main_v26_apply, val_main_v22_apply, val_main_v25_apply, val_main_v24_apply,
    val_main_v23_apply, val_main_cst_10_apply, clampLog_apply, clampLog1m_apply, label_apply]
  show -(lab (x1 j) * clampLog (x0 j) + (Ideal.ofBits .f32 0x3F800000#32 - lab (x1 j)) * clampLog1m (x0 j)) = _
  rw [ofBits_one]

/-- The reference's result. -/
theorem ref_value (i : S_.Idx) :
    val_main_v30 (F := Ideal) x0 x1 i
      = Ideal.div (0 + ∑ j : S16777216.Idx,
          Scalar.select (Ideal.cmp .oeq (lab (x1 j)) 0) (w0 cnt two (count x1)) (w1 cnt two (count x1))
            * -(lab (x1 j) * clampLog (x0 j) + (1 - lab (x1 j)) * clampLog1m (x0 j))) cnt := by
  rw [val_main_v30_apply, val_main_v29_apply, val_main_cst_11_apply, val_main_cst_12_apply]
  show Ideal.div (Ideal.ofBits .f32 0x00000000#32 + ∑ j : S16777216.Idx, val_main_v28 (F := Ideal) x0 x1 j) cnt = _
  rw [Ideal.ofBits_zero_f32]
  refine congrArg (fun z => Ideal.div (0 + z) cnt) (Finset.sum_congr rfl fun j _ => ?_)
  rw [val_main_v28_apply, weight_apply, bce_apply]
  rfl

end Cert.ReferenceIdeal.RefValue

end
-- ==== Proof.Bridge.lean ====
/-
  The two programs' results are one extended real when every label is 0 or 1.

  Over the 2^24 items k, with x k and the label word g k: the kernel's result is
      (w1 * (sum of the label-1 terms) + w0 * (sum of the label-0 terms)) / n
  and the reference's is
      (sum over k of (the weight of item k's label) * -(label * clamped log x + (1 - label) * clamped log (1 - x))) / n,
  the weights w0, w1 computed from the count of labels in both.  They agree by `WeightedSums.labelled_sum`: the
  number of items is the real 2^24, the constant 2 the real 2, every label the real 0 or 1.
-/
import proofs.«156055_j14139032338660_2_alg».proof.Proof.Terms
import proofs.«156055_j14139032338660_2_alg».proof.Proof.WeightedSums

noncomputable section

namespace Cert.Bridge

open Idealize.ShloMosaic Cert.Terms Cert.WeightedSums

/-- Picking by "equals zero", as the reference's compare and select spell it. -/
theorem select_eq_zero (x a b : EReal) : Scalar.select (Ideal.cmp .oeq x 0) a b = if x = 0 then a else b := by
  by_cases h : x = 0
  · have e : Ideal.cmp .oeq x 0 = 1#1 := by simp [Ideal.cmp, h]
    rw [if_pos h, e]; exact ValueIdx.select_one a b
  · have e : Ideal.cmp .oeq x 0 = 0#1 := by simp [Ideal.cmp, h]
    rw [if_neg h, e]; exact ValueIdx.select_zero a b

/-- The kernel's result and the reference's, as formulas over the items, are equal when every label is 0 or 1. -/
theorem results_agree (X : Fin 16777216 → EReal) (G : Fin 16777216 → BitVec 32)
    (hG : ∀ k, G k = 0#32 ∨ G k = 1#32) :
    Ideal.div (w1 cnt two (0 + ∑ k, lab (G k)) * (0 + ∑ k, termA (X k) (G k))
        + w0 cnt two (0 + ∑ k, lab (G k)) * (0 + ∑ k, termB (X k) (G k))) cnt
      = Ideal.div (0 + ∑ k, Scalar.select (Ideal.cmp .oeq (lab (G k)) 0)
            (w0 cnt two (0 + ∑ k, lab (G k))) (w1 cnt two (0 + ∑ k, lab (G k)))
          * -(lab (G k) * clampLog (X k) + (1 - lab (G k)) * clampLog1m (X k))) cnt := by
  choose b hb hlab using fun k => lab_cases (hG k)
  have hN : (16777216 : ℝ) = (Fintype.card (Fin 16777216) : ℝ) := by rw [Fintype.card_fin]; norm_num
  have key := labelled_sum b hb 16777216 hN (by norm_num) (fun k => clampLog (X k)) (fun k => clampLog1m (X k))
  unfold termA termB
  simp only [zero_add, select_eq_zero, hlab]
  show Ideal.div (w1 (Ideal.ofBits .f32 0x4B800000#32) (Ideal.ofBits .f32 0x40000000#32) _ * _
      + w0 (Ideal.ofBits .f32 0x4B800000#32) (Ideal.ofBits .f32 0x40000000#32) _ * _) (Ideal.ofBits .f32 0x4B800000#32)
    = Ideal.div (∑ k, (if (b k : EReal) = 0 then w0 (Ideal.ofBits .f32 0x4B800000#32) (Ideal.ofBits .f32 0x40000000#32) _
        else w1 (Ideal.ofBits .f32 0x4B800000#32) (Ideal.ofBits .f32 0x40000000#32) _) * _) (Ideal.ofBits .f32 0x4B800000#32)
  rw [ofBits_count, ofBits_two, key]

end Cert.Bridge

end
-- ==== Proof.Labels.lean ====
/-
  The precondition read back: every label word is 0 or 1.

  The precondition is the conjunction of "every x is finite" and "every label equals 0 or equals 1", each a
  `jnp.all`, that is a reduction by `and` from 1 over all items; a reduction by `and` that comes out 1 met only 1s,
  and an `or` of two equality tests that is 1 has one of them true.  (That x is finite is not needed: the identity
  between the two programs holds at every extended real.)
-/
import proofs.«156055_j14139032338660_2_alg».proof.Pre_finite_inputs
import Idealize.ShloMosaic.Lib.ReduceAll
import Idealize.ShloMosaic.Lib.ValueIdx

noncomputable section

namespace Cert.Labels

open Idealize.ShloMosaic Cert.Pre_finite_inputs

instance : Subsingleton S_.Idx := ⟨fun a b => funext fun d => d.elim0⟩

variable [Facts] {F : FTy → Type} [FloatOps F]

/-- Under the precondition every label word is 0 or 1. -/
theorem binary_of_pre (x : FVec F S16777216 .f32) (gt : IVec S16777216 32)
    (h : fn (F := F) x gt = fun _ => 1#1) (i : S16777216.Idx) : gt i = 0#32 ∨ gt i = 1#32 := by
  have e := congrFun h ValueIdx.ix0
  dsimp only [fn] at e
  obtain ⟨-, e9⟩ := IntOp.andi_eq_one.1 e
  have e8 := Host.reduce_andi_all _ _ _ _ _ e9 i
  rcases IntOp.ori_eq_one.1 e8 with h0 | h1
  · exact Or.inl (IntOp.cmpi_eq.1 h0)
  · exact Or.inr (IntOp.cmpi_eq.1 h1)

end Cert.Labels

end
-- ==== Proof.lean ====
/-
  The certificate of the fused weighted binary cross-entropy kernel against its jnp reference.

  Both programs compute, from 2^24 reals x and labels gt that are 0 or 1 (the precondition; nothing is asked of x
  here beyond what the generated frames ask), the class-weighted mean of the binary cross-entropy with the logarithms
  clamped at -100, the two class weights formed from the count s of labels 1:  pa = n n / (n - s) / 2 / s,
  w0 = pa s / n,  w1 = pa (n - s) / n.

  The reference weights item by item and sums.  The kernel sums, in one pass over 64 grid points on two cores, the
  labels, the label-1 terms gt * -log x and the label-0 terms (1 - gt) * -log (1 - x) into three [2,8,128] arrays of
  partial totals (Proof/CasePieces, BlockFold, Totals, KernelValue: what a point stores, one point's addition at an
  entry, the totals after each point by induction over the points, the arrays and the host lines after the region),
  and applies the weights to the three grand totals.  Every item is met exactly once (Proof/Terms, `regroup`), so
  the grand totals are the sums over all items; and weighting the two class totals equals weighting item by item
  because every label is 0 or 1 and each weight is a nonnegative real whenever its class is not empty
  (Proof/WeightedSums, Proof/Bridge).  The reference is read one operation at a time (Proof/RefValue).  The frames
  are the generated ones; the ideal pass rewrote nothing.
-/
import proofs.«156055_j14139032338660_2_alg».proof.Defs
import proofs.«156055_j14139032338660_2_alg».proof.Proof.Gen.Kernel
import proofs.«156055_j14139032338660_2_alg».proof.Proof.Gen.Kernel.Frame
import proofs.«156055_j14139032338660_2_alg».proof.Proof.Gen.KernelIdeal
import proofs.«156055_j14139032338660_2_alg».proof.Proof.Gen.KernelIdeal.Frame
import proofs.«156055_j14139032338660_2_alg».proof.Proof.Gen.ReferenceIdeal
import proofs.«156055_j14139032338660_2_alg».proof.Proof.Gen.Pre_finite_inputs
import proofs.«156055_j14139032338660_2_alg».proof.Proof.KernelValue
import proofs.«156055_j14139032338660_2_alg».proof.Proof.RefValue
import proofs.«156055_j14139032338660_2_alg».proof.Proof.Bridge
import proofs.«156055_j14139032338660_2_alg».proof.Proof.Labels
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end at one extended real: the kernel's formula over the items (its run, read), the reference's formula
    (its run, read one operation at a time) of arguments that agree, and the two formulas are equal for labels that
    are all 0 or 1, which the precondition says. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  have hlab : ∀ k : Fin 16777216, Cert.KernelIdeal.Totals.gtAt m c k = 0#32 ∨ Cert.KernelIdeal.Totals.gtAt m c k = 1#32 :=
    fun k => Cert.Labels.binary_of_pre (F := Ideal) _ _ (hpre c) (ValueIdx.ix1 k)
  rw [Cert.ReferenceIdeal.ReadP.val_main_v30_eq, (hagree c).1, (hagree c).2]
  funext i
  rw [Cert.ReferenceIdeal.RefValue.ref_value]
  simp only [Cert.ReferenceIdeal.RefValue.count, Cert.Terms.sum_idx1]
  exact (Cert.Bridge.results_agree (Cert.KernelIdeal.Totals.xAt m c) (Cert.KernelIdeal.Totals.gtAt m c) hlab).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
